-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S128x64 : Shape := ⟨2, ![128, 64]⟩
abbrev S50000x64 : Shape := ⟨2, ![50000, 64]⟩
abbrev S5000x64 : Shape := ⟨2, ![5000, 64]⟩
abbrev S1x64 : Shape := ⟨2, ![1, 64]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x64, .f32⟩
  | .hbm, ⟨57, _⟩ => ⟨S128x64, .bf16⟩
  | .hbm, ⟨58, _⟩ => ⟨S128x64, .f32⟩
  | .hbm, ⟨59, _⟩ => ⟨S128x64, .bf16⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x64, .bf16⟩
  | .local _ .vmem, ⟨18, _⟩ => ⟨S128x64, .bf16⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S128x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run, with every buffer named. The program is four segments: host operations, the first
  layer's grid, host operations, the second layer's grid. At each boundary the buffers hold a known valuation: the
  launch memory, then the host operations' results folded over it, then the first grid's arrays at what its
  write-backs leave, and so on. Every weakly fair execution terminates, and in every final state each buffer that
  outlives the grids holds the last valuation's contents. The argument arrays and the result array are among them.
-/
import proofs.«107025_j120259084718_2_alg».proof.Proof.Gen.KernelIdeal.Frame

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped to a
    grid ends at the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array is one of the buffers the final state is read at. -/
theorem result_mem : Proc.devRef .tc main_v42 ∈ Pipeline.ucRefs τ sig := mem_uc main_v42 (by decide)

end Cert.KernelIdeal.Final

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibDenseLayer.lean ====
/-
  A dense layer read at a row and a column. For an M x K array x, a K x N array w and a 1 x N row b, the entry (r, c) of
  act (x · w + b) is act ((∑ k, x (r, k) * w (k, c)) + b (0, c)). Two programs compute it: a block body — a matrix-unit
  product of the operands (rounded to a narrower format on the way, which changes nothing at the extended reals) into a
  zero accumulator, plus the row broadcast down the rows — and the host's dot_general plus the bias vector broadcast in
  two steps, [N] → [1, N] → [M, N]. Both are read here at (r, c) as that one expression. A zero row changes nothing:
  adding the real number 0 to an extended real is the identity, infinite or not.
-/
import proofs.«107025_j120259084718_2_alg».proof.Proof.LibDotIx2
import Idealize.ShloMosaic.Lib.Pipeline.Value

noncomputable section

open scoped BigOperators

namespace Idealize.ShloMosaic.ValueIdx

open Idealize.ShloMosaic

/-- The entry (r, c) of act (x · w + b), b a single row. -/
def denseRC {M K N : ℕ} (act : EReal → EReal) (x : (⟨2, ![M, K]⟩ : Shape).Idx → EReal) (w : (⟨2, ![K, N]⟩ : Shape).Idx → EReal)
    (b : (⟨2, ![1, N]⟩ : Shape).Idx → EReal) (r : Fin M) (c : Fin N) : EReal :=
  act ((∑ k : Fin K, x (ix2 r k) * w (ix2 k c)) + b (ix2 (0 : Fin 1) c))

/-- A 1 x N row broadcast down M rows, read at (r, c): the row's entry c. -/
theorem rowBroadcastTo_ix2 {M N : ℕ} {α : Type} (b : (⟨2, ![1, N]⟩ : Shape).Idx → α)
    (h : (⟨2, ![1, N]⟩ : Shape).Broadcasts (⟨2, ![M, N]⟩ : Shape)) (r : Fin M) (c : Fin N) :
    broadcastTo (⟨2, ![M, N]⟩ : Shape) b h (ix2 r c) = b (ix2 (0 : Fin 1) c) := by
  refine broadcastTo_apply b h (ix2 r c) (ix2 (0 : Fin 1) c) fun a => ?_
  match a with
  | ⟨0, _⟩ => show (0 : ℕ) = if (1 : ℕ) = 1 then 0 else _; rw [if_pos rfl]
  | ⟨1, _⟩ =>
    show c.val = if N = 1 then 0 else c.val
    split_ifs with h1
    · have := c.isLt; omega
    · rfl

/-- The block body's value at (r, c): the product into zeros plus the broadcast row. -/
theorem denseBlock_apply {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (w : FVec Ideal (⟨2, ![K, N]⟩ : Shape) .f32)
    (b : FVec Ideal (⟨2, ![1, N]⟩ : Shape) .f32) (h1 : FTy.bf16.bits < FTy.f32.bits) (h2 : FTy.bf16.bits < FTy.f32.bits)
    (hb : (⟨2, ![1, N]⟩ : Shape).Broadcasts (⟨2, ![M, N]⟩ : Shape)) (r : Fin M) (c : Fin N) :
    addf (matmul d none (truncf .bf16 x h1) (truncf .bf16 w h2) (constant (⟨2, ![M, N]⟩ : Shape) .f32 0x00000000#32))
        (broadcastTo (⟨2, ![M, N]⟩ : Shape) b hb) (ix2 r c)
      = (∑ k : Fin K, x (ix2 r k) * w (ix2 k c)) + b (ix2 (0 : Fin 1) c) := by
  show FloatOps.matmul d none (truncf .bf16 x h1) (truncf .bf16 w h2) (constant (⟨2, ![M, N]⟩ : Shape) .f32 0x00000000#32) (ix2 r c)
      + broadcastTo (⟨2, ![M, N]⟩ : Shape) b hb (ix2 r c) = _
  rw [matmul_zero_ix2_any hd, rowBroadcastTo_ix2]
  rfl

/-- The host's product at (r, c) is the dense entry with the identity and a zero row. -/
theorem dotGeneral_eq_denseRC {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (w : FVec Ideal (⟨2, ![K, N]⟩ : Shape) .f32)
    (z : (⟨2, ![1, N]⟩ : Shape).Idx → EReal) (hz : ∀ j, z j = 0) (r : Fin M) (c : Fin N) :
    Host.dotGeneral d none x w (ix2 r c) = denseRC id x w z r c := by
  unfold denseRC
  rw [hz, add_zero]
  exact dotGeneral_ix2_any hd none _ x w r c

end Idealize.ShloMosaic.ValueIdx

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRowReduce.lean ====
/-
  Reductions of an `a × b` array along its columns, read at a row `p`, at the extended reals: the vector unit's
  multi-reduction with an add or a maximum body and the host's one-operand reduce with a maximum body are, at row `p`,
  the finite sum, respectively the fold of `max` from the starting value, over the `b` entries `(p, k)` of that row.
  The reduced index `p` with a column `k` put back is `(p, k)`.
-/
import Idealize.ShloMosaic.PureOps.Ideal.Laws
import Idealize.ShloMosaic.Lib.ValueIdx

noncomputable section

open scoped BigOperators

namespace Idealize.ShloMosaic.ValueIdx

open Idealize.ShloMosaic

/-- The reduced index `p` of an `a × b` array reduced along its columns, with column `k` put back, is `(p, k)`. -/
theorem lift_cols_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A multi-reduction with an add body along the columns, at row `p`: the sum of the row. -/
theorem rowSum_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_cols_ix2 h p k))

/-- A multi-reduction with a maximum body along the columns, at row `p`: the fold of `max` over the row, from the
    accumulator's value. -/
theorem rowMax_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (FloatOps.ofBits φ acc) (fun k => src (ix2 p k)) :=
  (Ideal.multiReduction_maximumf_single src acc h hφ hacc (ix1 p)).trans
    (congrArg ((Finset.univ : Finset (Fin b)).fold max (FloatOps.ofBits φ acc))
      (funext fun k => congrArg src (lift_cols_ix2 h p k)))

/-- The host's reduce with a maximum body along the columns, at row `p`: the fold of `max` over the row, from the
    initial value's one element. -/
theorem hostRowMax_ix1 {φ : FTy} {a b : ℕ} (x : FVec Ideal (⟨2, ![a, b]⟩ : Shape) φ) {u : Shape} (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg ((Finset.univ : Finset (Fin b)).fold max (init (Shape.Idx.first hu)))
      (funext fun k => congrArg x (lift_cols_ix2 h p k)))

end Idealize.ShloMosaic.ValueIdx

end
-- ==== Proof.LibColumnRowRead.lean ====
/-
  Reading small layout changes of a vector at a pair of coordinates.
  * A length-a vector reshaped to an [a, 1] column, read at (p, 0), is the vector at p; reshaped to a [1, b] row, read at
    (0, q), it is the vector at q (the row-major position is the same).
  * A length-a vector broadcast to an [a, 1] column and then along b lanes, read at (p, c), is the vector at p (a ≠ 1, so
    the row axis is not a unit axis); a length-b vector broadcast to a [1, b] row and then along a rows, read at (p, c),
    is the vector at c (b ≠ 1).
-/
import Idealize.ShloMosaic.Lib.ValueIdx
import Idealize.ShloMosaic.Lib.Pipeline.Value

namespace Cert.Gcn.ColumnRowRead

open Idealize.ShloMosaic Idealize.ShloMosaic.ValueIdx

variable {α : Type}

/-- A vector as a column, read at (p, 0). -/
theorem column_apply {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A vector as a row, read at (0, q). -/
theorem row_apply {b : ℕ} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]
    show q.val = 0 * b + q.val
    omega)

/-- A vector broadcast to a column and then along the lanes, read at (p, c). -/
theorem bcast_col_apply {a b : ℕ} (ha : a ≠ 1) (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 v) (ix2 p c) = v (ix1 p) := by
  rw [broadcastInDim_apply (![0, 1] : Fin 2 → Fin 2) h2 _ (ix2 p c) (ix2 p (0 : Fin 1)) (fun ax => by
    match ax with
    | ⟨0, _⟩ => show p.val = if a = 1 then 0 else p.val; rw [if_neg ha]
    | ⟨1, _⟩ => rfl)]
  exact broadcastInDim_apply (![0] : Fin 1 → Fin 2) h1 v (ix2 p (0 : Fin 1)) (ix1 p) (fun ax => by
    match ax with
    | ⟨0, _⟩ => show p.val = if a = 1 then 0 else p.val; rw [if_neg ha])

/-- A vector broadcast to a row and then along the rows, read at (p, c). -/
theorem bcast_row_apply {a b : ℕ} (hb : b ≠ 1) (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![1, b]⟩ (![1] : Fin 1 → Fin 2) h1 v) (ix2 p c) = v (ix1 c) := by
  rw [broadcastInDim_apply (![0, 1] : Fin 2 → Fin 2) h2 _ (ix2 p c) (ix2 (0 : Fin 1) c) (fun ax => by
    match ax with
    | ⟨0, _⟩ => rfl
    | ⟨1, _⟩ => show c.val = if b = 1 then 0 else c.val; rw [if_neg hb])]
  exact broadcastInDim_apply (![1] : Fin 1 → Fin 2) h1 v (ix2 (0 : Fin 1) c) (ix1 c) (fun ax => by
    match ax with
    | ⟨0, _⟩ => show c.val = if b = 1 then 0 else c.val; rw [if_neg hb])

end Cert.Gcn.ColumnRowRead
-- ==== Proof.SageSpec.lean ====
/-
  The mathematics of a two-layer mean-aggregation graph convolution, read entry by entry on the extended reals.

  One layer takes an aggregate array A (the sum of the neighbours' feature rows), the nodes' own features X, a per-row
  scale s, two weight arrays Wl, Wr laid out (input feature, output feature) and a bias b. Its pre-activation at row r
  and output feature c is

      (∑ k, (A (r, k) * s r) * Wl (k, c)) + (∑ k, X (r, k) * Wr (k, c)) + b c.

  The first layer's result is the positive part of that number; the second layer's result is the row's log-softmax:
  with m the maximum of row r, the entry is (z c - m) - log (∑ k, exp (z k - m)).

  The scale is where the two programs differ in spelling. One multiplies the aggregate by the reciprocal 1 / d of the
  row's clipped in-degree d = max deg 1, the other divides the aggregate by d. For a divisor that is not zero the
  extended-real quotient a / d is a * d⁻¹ and 1 / d is d⁻¹, so the two agree for every a, finite or not; and
  max x 1 is at least 1, hence never zero, whatever x is.
-/
import Idealize.ShloMosaic.PureOps.Ideal.Laws
import Idealize.ShloMosaic.Lib.ValueIdx

noncomputable section

open scoped BigOperators

namespace Cert.Sage

open Idealize.ShloMosaic Idealize.ShloMosaic.ValueIdx

/-- The pre-activation of one layer at row `r` and output feature `c`. -/
def pre {n K N : ℕ} (A X : (⟨2, ![n, K]⟩ : Shape).Idx → EReal) (s : Fin n → EReal)
    (Wl Wr : (⟨2, ![K, N]⟩ : Shape).Idx → EReal) (b : (⟨1, ![N]⟩ : Shape).Idx → EReal) (r : Fin n) (c : Fin N) : EReal :=
  (∑ k : Fin K, (A (ix2 r k) * s r) * Wl (ix2 k c)) + (∑ k : Fin K, X (ix2 r k) * Wr (ix2 k c)) + b (ix1 c)

/-- The maximum of a row, as the fold of `max` from the least extended real. -/
def rowMax {N : ℕ} (z : Fin N → EReal) : EReal := (Finset.univ : Finset (Fin N)).fold max ⊥ z

/-- The log-softmax of a row at position `c`. -/
def logSoftmaxRow {N : ℕ} (z : Fin N → EReal) (c : Fin N) : EReal :=
  (z c - rowMax z) - Ideal.log (∑ k : Fin N, Ideal.exp (z k - rowMax z))

/-- The first layer's result: the positive part of the pre-activation. -/
def hidden {n K N : ℕ} (A X : (⟨2, ![n, K]⟩ : Shape).Idx → EReal) (s : Fin n → EReal)
    (Wl Wr : (⟨2, ![K, N]⟩ : Shape).Idx → EReal) (b : (⟨1, ![N]⟩ : Shape).Idx → EReal) :
    (⟨2, ![n, N]⟩ : Shape).Idx → EReal :=
  fun i => max (pre A X s Wl Wr b (i 0) (i 1)) 0

/-- The second layer's result: each row's log-softmax of the pre-activations. -/
def output {n K N : ℕ} (A X : (⟨2, ![n, K]⟩ : Shape).Idx → EReal) (s : Fin n → EReal)
    (Wl Wr : (⟨2, ![K, N]⟩ : Shape).Idx → EReal) (b : (⟨1, ![N]⟩ : Shape).Idx → EReal) :
    (⟨2, ![n, N]⟩ : Shape).Idx → EReal :=
  fun i => logSoftmaxRow (fun c => pre A X s Wl Wr b (i 0) c) (i 1)

/-- Dividing by a divisor that is not zero is multiplying by its reciprocal, on every extended real. -/
theorem div_eq_mul_recip {a d : EReal} (hd : d ≠ 0) : Ideal.div a d = a * Ideal.div 1 d := by
  unfold Ideal.div
  rw [if_neg hd, if_neg hd, one_mul]

/-- A number clipped below at one is not zero. -/
theorem max_one_ne_zero (x : EReal) : max x 1 ≠ 0 :=
  ne_of_gt (lt_of_lt_of_le zero_lt_one (le_max_right x 1))

/-- The maximum with the least element on the left is the other argument. -/
theorem bot_max (x : EReal) : max ⊥ x = x := max_eq_right bot_le

end Cert.Sage

end
-- ==== Proof.LayerBody.lean ====
/-
  What one grid point's body computes, entry by entry, on the extended reals.

  A block of 5000 rows is processed at a time. The body scales each aggregate row by that row's entry of a one-column
  array, rounds to a narrower float format (which changes nothing on the extended reals), takes two matrix products into
  zero accumulators, adds them and adds the bias row broadcast down the block. At row p and output feature q that is

      (∑ k, (a (p, k) * d (p, 0)) * wl (k, q)) + (∑ k, x (p, k) * wr (k, q)) + b q,

  the layer's pre-activation for the block. The first body stores its positive part. The second body stores the row's
  log-softmax: it subtracts the row's maximum (a fold of max from minus infinity over the 64 entries of the row),
  exponentiates, sums the row, takes the logarithm and subtracts it.
-/
import proofs.«107025_j120259084718_2_alg».proof.Proof.Gen.KernelIdeal.Skeleton
import proofs.«107025_j120259084718_2_alg».proof.Proof.LibDenseLayer
import proofs.«107025_j120259084718_2_alg».proof.Proof.LibColumnLayout
import proofs.«107025_j120259084718_2_alg».proof.Proof.LibRowReduce
import proofs.«107025_j120259084718_2_alg».proof.Proof.LibColumnRowRead
import proofs.«107025_j120259084718_2_alg».proof.Proof.SageSpec

noncomputable section

open scoped BigOperators

namespace Cert.KernelIdeal.Body

open Cert.KernelIdeal Cert.KernelIdeal.Gen Idealize.ShloMosaic Idealize.ShloMosaic.ValueIdx Cert.Sage

/-- The first layer's products contract the 128 input features: left (p, k), right (k, q). -/
theorem plain128 : PlainDot dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The second layer's products contract the 128 hidden features: left (p, k), right (k, q). -/
theorem plain64 : PlainDot dot_S5000x128_S128x64_S5000x64_1_0_0_1_n_n where
  rank := rfl
  size := rfl
  l0 := fun j q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  l1 := fun j q => dot_S5000x128_S128x64_S5000x64_1_0_0_1_n_n.lhsIdx_val_of_single rfl j q
  r0 := fun j q => dot_S5000x128_S128x64_S5000x64_1_0_0_1_n_n.rhsIdx_val_of_single rfl j q
  r1 := fun j q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The scaled aggregate block at (p, k): the aggregate's entry times the row's entry of the one-column array. -/
theorem scaled_apply (a : FVec Ideal S5000x128 .f32) (d : FVec Ideal S5000x1 .f32)
    (h1 : S5000x128.ShapeCasts S5000x128) (h2 : S5000x1.ShapeCasts S5000x1) (h3 : S5000x1.Broadcasts S5000x128)
    (h4 : FTy.bf16.bits < FTy.f32.bits) (p : Fin 5000) (k : Fin 128) :
    truncf .bf16 (mulf (shapeCast S5000x128 a h1) (broadcastTo S5000x128 (shapeCast S5000x1 d h2) h3)) h4 (ix2 p k)
      = (a (ix2 p k) : EReal) * d (ix2 p (0 : Fin 1)) := by
  show (shapeCast S5000x128 a h1 (ix2 p k) : EReal) * broadcastTo S5000x128 (shapeCast S5000x1 d h2) h3 (ix2 p k) = _
  rw [shapeCast_self, broadcastTo_a1_ab_apply, shapeCast_self]

/-- The sum of the two products into zeros and the broadcast bias row, at (p, q). -/
theorem dense_apply {N : ℕ} {D : DotDims (⟨2, ![5000, 128]⟩ : Shape) (⟨2, ![128, N]⟩ : Shape) (⟨2, ![5000, N]⟩ : Shape)}
    (hD : PlainDot D) (al xb : FVec Ideal (⟨2, ![5000, 128]⟩ : Shape) .bf16) (wl wr : FVec Ideal (⟨2, ![128, N]⟩ : Shape) .bf16)
    (b : FVec Ideal (⟨1, ![N]⟩ : Shape) .f32) (h6 : (⟨1, ![N]⟩ : Shape).ShapeCasts ⟨2, ![1, N]⟩)
    (h7 : (⟨2, ![1, N]⟩ : Shape).Broadcasts (⟨2, ![5000, N]⟩ : Shape)) (p : Fin 5000) (q : Fin N) :
    addf (addf (matmul D none al wl (constant (⟨2, ![5000, N]⟩ : Shape) .f32 0x00000000#32))
        (matmul D none xb wr (constant (⟨2, ![5000, N]⟩ : Shape) .f32 0x00000000#32)))
      (broadcastTo (⟨2, ![5000, N]⟩ : Shape) (shapeCast (⟨2, ![1, N]⟩ : Shape) b h6) h7) (ix2 p q)
      = (∑ k : Fin 128, (al (ix2 p k) : EReal) * wl (ix2 k q)) + (∑ k : Fin 128, (xb (ix2 p k) : EReal) * wr (ix2 k q))
          + b (ix1 q) := by
  show (FloatOps.matmul D none al wl (constant (⟨2, ![5000, N]⟩ : Shape) .f32 0x00000000#32) (ix2 p q)
      + FloatOps.matmul D none xb wr (constant (⟨2, ![5000, N]⟩ : Shape) .f32 0x00000000#32) (ix2 p q) : EReal)
      + broadcastTo (⟨2, ![5000, N]⟩ : Shape) (shapeCast (⟨2, ![1, N]⟩ : Shape) b h6) h7 (ix2 p q) = _
  rw [matmul_zero_ix2_any hD, matmul_zero_ix2_any hD, rowBroadcastTo_ix2, Cert.Gcn.ColumnRowRead.row_apply]

/-- The row maximum subtracted, the exponentials summed along the row, the logarithm subtracted: at (p, q) this is
    the log-softmax of row p at position q. The maximum's fold starts from the least extended real. -/
theorem softmax_tail_apply (z : FVec Ideal S5000x64 .f32) (hr : S5000x64.Reduces [1] S5000)
    (hφ : FKind.Formats FTy.f32) (hm : (0xFF800000#32 : BitVec FTy.f32.bits) = FKind.maximumf.neutral .f32 hφ)
    (ha : (0x00000000#32 : BitVec FTy.f32.bits) = FKind.add.neutral .f32 hφ)
    (hc : S5000.ShapeCasts S5000x1) (hb : S5000x1.Broadcasts S5000x64) (p : Fin 5000) (q : Fin 64) :
    subf (subf z (broadcastTo S5000x64 (shapeCast S5000x1 (multiReduction .maximumf [1] S5000 z 0xFF800000#32 hr hφ hm) hc) hb))
      (broadcastTo S5000x64 (log (shapeCast S5000x1 (multiReduction .add [1] S5000
        (exp (subf z (broadcastTo S5000x64 (shapeCast S5000x1 (multiReduction .maximumf [1] S5000 z 0xFF800000#32 hr hφ hm) hc) hb)))
        0x00000000#32 hr hφ ha) hc)) hb) (ix2 p q)
      = logSoftmaxRow (fun c : Fin 64 => (z (ix2 p c) : EReal)) q := by
  have hbot : FloatOps.ofBits (F := Ideal) FTy.f32 (0xFF800000#32 : BitVec FTy.f32.bits) = (⊥ : EReal) := by
    show Ideal.ofBits .f32 0xFF800000#32 = ⊥
    simp [Ideal.ofBits, Ideal.ieee]
  have hmax : ∀ c : Fin 64, broadcastTo S5000x64 (shapeCast S5000x1 (multiReduction .maximumf [1] S5000 z 0xFF800000#32 hr hφ hm) hc) hb (ix2 p c)
      = rowMax (fun c : Fin 64 => (z (ix2 p c) : EReal)) := fun c => by
    rw [broadcastTo_a1_ab_apply, shapeCast_a_a1_apply, rowMax_ix1, hbot]
    rfl
  show ((z (ix2 p q) : EReal) - broadcastTo S5000x64 (shapeCast S5000x1 (multiReduction .maximumf [1] S5000 z 0xFF800000#32 hr hφ hm) hc) hb (ix2 p q))
      - broadcastTo S5000x64 (log (shapeCast S5000x1 (multiReduction .add [1] S5000
        (exp (subf z (broadcastTo S5000x64 (shapeCast S5000x1 (multiReduction .maximumf [1] S5000 z 0xFF800000#32 hr hφ hm) hc) hb)))
        0x00000000#32 hr hφ ha) hc)) hb (ix2 p q) = _
  rw [hmax q, broadcastTo_a1_ab_apply]
  show ((z (ix2 p q) : EReal) - rowMax (fun c : Fin 64 => (z (ix2 p c) : EReal)))
      - Ideal.log (shapeCast S5000x1 (multiReduction .add [1] S5000
        (exp (subf z (broadcastTo S5000x64 (shapeCast S5000x1 (multiReduction .maximumf [1] S5000 z 0xFF800000#32 hr hφ hm) hc) hb)))
        0x00000000#32 hr hφ ha) hc (ix2 p (0 : Fin 1))) = _
  rw [shapeCast_a_a1_apply, rowSum_ix1]
  unfold logSoftmaxRow
  refine congrArg (fun t => ((z (ix2 p q) : EReal) - rowMax (fun c : Fin 64 => (z (ix2 p c) : EReal))) - Ideal.log t)
    (Finset.sum_congr rfl fun k _ => ?_)
  show Ideal.exp ((z (ix2 p k) : EReal) - broadcastTo S5000x64 (shapeCast S5000x1 (multiReduction .maximumf [1] S5000 z 0xFF800000#32 hr hφ hm) hc) hb (ix2 p k)) = _
  rw [hmax k]

/-- THE FIRST BODY at (p, q): the positive part of the block's pre-activation. -/
theorem pay0_apply (a : FVec Ideal S5000x128 .f32) (d : FVec Ideal S5000x1 .f32) (x : FVec Ideal S5000x128 .f32)
    (wl wr : FVec Ideal S128x128 .bf16) (b : FVec Ideal S128 .f32) (p : Fin 5000) (q : Fin 128) :
    k0_pay1 (F := Ideal) a d x wl wr b (ix2 p q)
      = max (pre (n := 5000) (K := 128) (N := 128) a x (fun r => d (ix2 r (0 : Fin 1))) wl wr b p q) 0 := by
  unfold k0_pay1
  show max (addf (addf (matmul _ none _ _ _) (matmul _ none _ _ _)) (broadcastTo _ (shapeCast _ b _) _) (ix2 p q))
      (Ideal.ofBits .f32 0x00000000#32) = _
  rw [dense_apply plain128, Ideal.ofBits_zero_f32]
  unfold pre
  refine congrArg (fun t => max t 0) ?_
  refine congrArg₂ (· + ·) (congrArg₂ (· + ·) (Finset.sum_congr rfl fun k _ => ?_) (Finset.sum_congr rfl fun k _ => ?_)) rfl
  · rw [scaled_apply, shapeCast_self]
  · rw [shapeCast_self]; rfl

/-- THE SECOND BODY at (p, q): the log-softmax of row p of the block's pre-activations, at q. -/
theorem pay1_apply (a : FVec Ideal S5000x128 .f32) (d : FVec Ideal S5000x1 .f32) (x : FVec Ideal S5000x128 .f32)
    (wl wr : FVec Ideal S128x64 .bf16) (b : FVec Ideal S64 .f32) (p : Fin 5000) (q : Fin 64) :
    k1_pay1 (F := Ideal) a d x wl wr b (ix2 p q)
      = logSoftmaxRow (fun c : Fin 64 => pre (n := 5000) (K := 128) (N := 64) a x (fun r => d (ix2 r (0 : Fin 1))) wl wr b p c) q := by
  unfold k1_pay1
  refine (softmax_tail_apply _ _ _ _ _ _ _ p q).trans ?_
  refine congrArg (fun f => logSoftmaxRow f q) (funext fun c => ?_)
  show addf (addf (matmul _ none _ _ _) (matmul _ none _ _ _)) (broadcastTo _ (shapeCast _ b _) _) (ix2 p c) = _
  rw [dense_apply plain64]
  unfold pre
  refine congrArg₂ (· + ·) (congrArg₂ (· + ·) (Finset.sum_congr rfl fun k _ => ?_) (Finset.sum_congr rfl fun k _ => ?_)) rfl
  · rw [scaled_apply, shapeCast_self]
  · show (shapeCast S5000x128 x _ (ix2 p k) : EReal) * shapeCast S128x64 wr _ (ix2 k c) = _
    rw [shapeCast_self, shapeCast_self]

end Cert.KernelIdeal.Body

end
-- ==== Proof.HiddenArray.lean ====
/-
  From blocks to the whole array, for the first layer's grid. The grid has ten points; point t reads rows
  5000 t … 5000 t + 4999 of the aggregate, of the features and of the one-column scale, the two weight arrays and the
  bias whole, and writes rows 5000 t … 5000 t + 4999 of the result. So what point t writes back is block t of ONE
  function of the arrays the grid finds on entry: the positive part of the layer's pre-activation, entry by entry.
  The ten blocks cover the 50000 rows (row r lies in block r / 5000), so the result array ends holding that function.
-/
import proofs.«107025_j120259084718_2_alg».proof.Proof.Gen.KernelIdeal.Frame
import proofs.«107025_j120259084718_2_alg».proof.Proof.LayerBody
import Idealize.ShloMosaic.Lib.Pipeline.Value

noncomputable section

open scoped BigOperators

namespace Cert.KernelIdeal.Arrays

open Cert.KernelIdeal Cert.KernelIdeal.Gen Cert.KernelIdeal.Body Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The first layer's result as one function of the arrays the grid finds on entry. -/
def hiddenOf (c : Dev nD) : Buf (Elt Ideal) ((c : Thread nD τ).loc main_v27) :=
  hidden (n := 50000) (K := 128) (N := 128) (V c main_v22) (V c main_arg0) (fun r => V c main_v12 (ix2 r (0 : Fin 1)))
    (V c main_v24) (V c main_v26) (V c main_arg4)

/-- The printed index maps over the grid: the row windows move with the point, the weights and the bias stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The aggregate's block at point t is rows 5000 t … of the aggregate array. -/
theorem blk0_0 (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_v22 : S50000x128.Idx → Elt Ideal .f32) i := by
  obtain ⟨e0, e1, -⟩ := idx0 t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The features' block at point t is rows 5000 t … of the feature array. -/
theorem blk0_1 (c : Dev nD) (t : Fin cfg0.N) (y : S5000x128.Idx) (i : S50000x128.Idx)
    (h0 : (i 0).val = t.val * 5000 + (y 0).val) (h1 : (i 1).val = (y 1).val) :
    (iblk0 V c 1 t : Vec Ideal S5000x128 .f32) y = (V c main_arg0 : S50000x128.Idx → Elt Ideal .f32) i := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The scale's block at point t is rows 5000 t … of the one-column scale array. -/
theorem blk0_2 (c : Dev nD) (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c main_v12 : S50000x1.Idx → Elt Ideal .f32) i := by
  obtain ⟨-, -, -, -, e0, e1, -⟩ := idx0 t
  unfold iblk0
  rw [View.read_apply]
  show V c main_v12 _ = V c main_v12 _
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 1 + 1 * (y 1).val = (i 1).val; rw [e1, h1]; omega

/-- The left weights' block at every point is the whole array. -/
theorem blk0_3 (c : Dev nD) (t : Fin cfg0.N) (y : S128x128.Idx) :
    (iblk0 V c 3 t : Vec Ideal S128x128 .bf16) y = (V c main_v24 : S128x128.Idx → Elt Ideal .bf16) y := by
  obtain ⟨-, -, -, -, -, -, e0, e1, -⟩ := idx0 t
  unfold iblk0
  rw [View.read_apply]
  show V c main_v24 _ = V c main_v24 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The right weights' block at every point is the whole array. -/
theorem blk0_4 (c : Dev nD) (t : Fin cfg0.N) (y : S128x128.Idx) :
    (iblk0 V c 4 t : Vec Ideal S128x128 .bf16) y = (V c main_v26 : S128x128.Idx → Elt Ideal .bf16) y := by
  obtain ⟨-, -, -, -, -, -, -, -, e0, e1, -⟩ := idx0 t
  unfold iblk0
  rw [View.read_apply]
  show V c main_v26 _ = V c main_v26 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The bias block at every point is the whole vector. -/
theorem blk0_5 (c : Dev nD) (t : Fin cfg0.N) (y : S128.Idx) :
    (iblk0 V c 5 t : Vec Ideal S128 .f32) y = (V c main_arg4 : S128.Idx → Elt Ideal .f32) y := by
  obtain ⟨-, -, -, -, -, -, -, -, -, -, e0, -⟩ := idx0 t
  unfold iblk0
  rw [View.read_apply]
  show V c main_arg4 _ = V c main_arg4 _
  congr 1
  funext a
  apply Fin.ext
  match a with
  | ⟨0, _⟩ => show win0_5.index t (0 : Fin 1) * 128 + 1 * (y 0).val = (y 0).val; rw [e0]; omega

/-- WHAT POINT t WRITES BACK is block t of the layer function of the entry arrays. -/
theorem flushed0 (c : Dev nD) (t : Fin cfg0.N) :
    (dat0 V c).flushed 6 t = ((cfg0.win 6).blk t).view.read (Elt Ideal) (hiddenOf V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  funext y
  obtain ⟨p, q, rfl⟩ : ∃ (p : Fin 5000) (q : Fin 128), y = ix2 p q := ⟨y 0, y 1, eq_ix2 y⟩
  have hN : cfg0.N = 10 := N_0
  have hR : t.val * 5000 + p.val < 50000 := by have := t.isLt; have := p.isLt; omega
  obtain ⟨-, -, -, -, -, -, -, -, -, -, -, e6a, e6b⟩ := idx0 t
  have hemb : ((cfg0.win 6).blk t).view.emb (ix2 p q) = ix2 (⟨t.val * 5000 + p.val, hR⟩ : Fin 50000) q := by
    funext a
    apply Fin.ext
    match a with
    | ⟨0, _⟩ => show win0_6.index t (0 : Fin 2) * 5000 + 1 * p.val = t.val * 5000 + p.val; rw [e6a]; omega
    | ⟨1, _⟩ => show win0_6.index t (1 : Fin 2) * 128 + 1 * q.val = q.val; rw [e6b]; omega
  show k0_pay1 (F := Ideal) (iblk0 V c 0 t) (iblk0 V c 2 t) (iblk0 V c 1 t) (iblk0 V c 3 t) (iblk0 V c 4 t) (iblk0 V c 5 t) (ix2 p q)
      = hiddenOf V c (((cfg0.win 6).blk t).view.emb (ix2 p q))
  rw [hemb]
  refine (pay0_apply (iblk0 V c 0 t) (iblk0 V c 2 t) (iblk0 V c 1 t) (iblk0 V c 3 t) (iblk0 V c 4 t) (iblk0 V c 5 t) p q).trans ?_
  show _ = max (pre (n := 50000) (K := 128) (N := 128) (V c main_v22) (V c main_arg0) (fun r => V c main_v12 (ix2 r (0 : Fin 1)))
      (V c main_v24) (V c main_v26) (V c main_arg4) (⟨t.val * 5000 + p.val, hR⟩ : Fin 50000) q) 0
  unfold pre
  refine congrArg (fun s => max s 0) ?_
  refine congrArg₂ (· + ·) (congrArg₂ (· + ·) (Finset.sum_congr rfl fun k _ => ?_) (Finset.sum_congr rfl fun k _ => ?_)) ?_
  · beta_reduce
    rw [blk0_0 V c t (ix2 p k) (ix2 (⟨t.val * 5000 + p.val, hR⟩ : Fin 50000) k) rfl rfl,
      blk0_2 V c t (ix2 p (0 : Fin 1)) (ix2 (⟨t.val * 5000 + p.val, hR⟩ : Fin 50000) (0 : Fin 1)) rfl rfl,
      blk0_3 V c t (ix2 k q)]
  · rw [blk0_1 V c t (ix2 p k) (ix2 (⟨t.val * 5000 + p.val, hR⟩ : Fin 50000) k) rfl rfl, blk0_4 V c t (ix2 k q)]
  · exact blk0_5 V c t (ix1 q)

/-- An index of the result array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v27).slice (win0_6.rect t)).set ↔ _
  rw [View.set_slice_whole, Rect.mem_set_unit]
  exact Iff.rfl

/-- Every row of the result array lies in some point's block: row r in block r / 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, e6a, e6b⟩ := idx0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e6a, ht]; omega
  | ⟨1, _⟩ =>
    show win0_6.index t (1 : Fin 2) * 128 ≤ (i 1).val ∧ (i 1).val < win0_6.index t (1 : Fin 2) * 128 + 128
    rw [e6b]; omega

/-- THE RESULT ARRAY of the first grid, after all its write-backs: the layer function of the entry arrays. -/
theorem hidden_array (c : Dev nD) : (dat0 V c).arrAt 6 cfg0.N = hiddenOf V c :=
  (dat0 V c).arrAt_eq_of_cover 6 (hiddenOf V c) (fun t _ => flushed0 V c t) (cover0)

end Cert.KernelIdeal.Arrays

end
-- ==== Proof.OutputArray.lean ====
/-
  From blocks to the whole array, for the second layer's grid. As in the first grid, point t of ten reads rows
  5000 t … 5000 t + 4999 of the aggregate, of the hidden features and of the one-column scale, the two 128 × 64 weight
  arrays and the 64-entry bias whole, and writes rows 5000 t … 5000 t + 4999 of the result. What point t writes back is
  block t of ONE function of the arrays the grid finds on entry: each row's log-softmax of the layer's pre-activations.
  A row's log-softmax only needs that row, which lies inside one block, so the row blocks do not interact.
  The ten blocks cover the 50000 rows, so the result array ends holding that function.
-/
import proofs.«107025_j120259084718_2_alg».proof.Proof.Gen.KernelIdeal.Frame
import proofs.«107025_j120259084718_2_alg».proof.Proof.LayerBody
import Idealize.ShloMosaic.Lib.Pipeline.Value

noncomputable section

open scoped BigOperators

namespace Cert.KernelIdeal.OutArrays

open Cert.KernelIdeal Cert.KernelIdeal.Gen Cert.KernelIdeal.Body Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzz2 : (![0, 0] : Fin 2 → Nat) = fun _ => 0 := funext fun a => by fin_cases a <;> rfl
theorem hzz1 : (![0] : Fin 1 → Nat) = fun _ => 0 := funext fun a => by fin_cases a <;> rfl

/-- The second layer's result as one function of the arrays the grid finds on entry. -/
def outputOf (c : Dev nD) : Buf (Elt Ideal) ((c : Thread nD τ).loc main_v42) :=
  output (n := 50000) (K := 128) (N := 64) (V c main_v37) (V c main_v27) (fun r => V c main_v12 (ix2 r (0 : Fin 1)))
    (V c main_v39) (V c main_v41) (V c main_arg7)

/-- The printed index maps over the grid: the row windows move with the point, the weights and the bias stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The aggregate's block at point t is rows 5000 t … of the aggregate array. -/
theorem blk1_0 (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v37 : S50000x128.Idx → Elt Ideal .f32) i := by
  obtain ⟨e0, e1, -⟩ := idx1 t
  unfold iblk1
  rw [View.read_apply]
  show V c main_v37 _ = V c main_v37 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The hidden features' block at point t is rows 5000 t … of the hidden array. -/
theorem blk1_1 (c : Dev nD) (t : Fin cfg1.N) (y : S5000x128.Idx) (i : S50000x128.Idx)
    (h0 : (i 0).val = t.val * 5000 + (y 0).val) (h1 : (i 1).val = (y 1).val) :
    (iblk1 V c 1 t : Vec Ideal S5000x128 .f32) y = (V c main_v27 : S50000x128.Idx → Elt Ideal .f32) i := by
  obtain ⟨-, -, e0, e1, -⟩ := idx1 t
  unfold iblk1
  rw [View.read_apply]
  show V c main_v27 _ = V c main_v27 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The scale's block at point t is rows 5000 t … of the one-column scale array. -/
theorem blk1_2 (c : Dev nD) (t : Fin cfg1.N) (y : S5000x1.Idx) (i : S50000x1.Idx)
    (h0 : (i 0).val = t.val * 5000 + (y 0).val) (h1 : (i 1).val = (y 1).val) :
    (iblk1 V c 2 t : Vec Ideal S5000x1 .f32) y = (V c main_v12 : S50000x1.Idx → Elt Ideal .f32) i := by
  obtain ⟨-, -, -, -, e0, e1, -⟩ := idx1 t
  unfold iblk1
  rw [View.read_apply]
  show V c main_v12 _ = V c main_v12 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The left weights' block at every point is the whole array. -/
theorem blk1_3 (c : Dev nD) (t : Fin cfg1.N) (y : S128x64.Idx) :
    (iblk1 V c 3 t : Vec Ideal S128x64 .bf16) y = (V c main_v39 : S128x64.Idx → Elt Ideal .bf16) y := by
  obtain ⟨-, -, -, -, -, -, e0, e1, -⟩ := idx1 t
  unfold iblk1
  rw [View.read_apply]
  show V c main_v39 _ = V c main_v39 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- The right weights' block at every point is the whole array. -/
theorem blk1_4 (c : Dev nD) (t : Fin cfg1.N) (y : S128x64.Idx) :
    (iblk1 V c 4 t : Vec Ideal S128x64 .bf16) y = (V c main_v41 : S128x64.Idx → Elt Ideal .bf16) y := by
  obtain ⟨-, -, -, -, -, -, -, -, e0, e1, -⟩ := idx1 t
  unfold iblk1
  rw [View.read_apply]
  show V c main_v41 _ = V c main_v41 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 64 + 1 * (y 1).val = (y 1).val; rw [e1]; omega

/-- The bias block at every point is the whole vector. -/
theorem blk1_5 (c : Dev nD) (t : Fin cfg1.N) (y : S64.Idx) :
    (iblk1 V c 5 t : Vec Ideal S64 .f32) y = (V c main_arg7 : S64.Idx → Elt Ideal .f32) y := by
  obtain ⟨-, -, -, -, -, -, -, -, -, -, e0, -⟩ := idx1 t
  unfold iblk1
  rw [View.read_apply]
  show V c main_arg7 _ = V c main_arg7 _
  congr 1
  funext a
  apply Fin.ext
  match a with
  | ⟨0, _⟩ => show win1_5.index t (0 : Fin 1) * 64 + 1 * (y 0).val = (y 0).val; rw [e0]; omega

/-- WHAT POINT t WRITES BACK is block t of the layer function of the entry arrays. -/
theorem flushed1 (c : Dev nD) (t : Fin cfg1.N) :
    (dat1 V c).flushed 6 t = ((cfg1.win 6).blk t).view.read (Elt Ideal) (outputOf V c) := by
  show (cfg1.win 6).cut (grid1.coords t) ((dat1 V c).after 6 t) = _
  rw [after1_6]
  unfold out1_6
  rw [View.canon_unit_zero hzz2]
  simp only [View.ld_unit_zero (S := S5000x128) hzz2, View.ld_unit_zero (S := S5000x1) hzz2,
    View.ld_unit_zero (S := S128x64) hzz2, View.ld_unit_zero (S := S64) hzz1]
  funext y
  obtain ⟨p, q, rfl⟩ : ∃ (p : Fin 5000) (q : Fin 64), y = ix2 p q := ⟨y 0, y 1, eq_ix2 y⟩
  have hN : cfg1.N = 10 := N_1
  have hR : t.val * 5000 + p.val < 50000 := by have := t.isLt; have := p.isLt; omega
  obtain ⟨-, -, -, -, -, -, -, -, -, -, -, e6a, e6b⟩ := idx1 t
  have hemb : ((cfg1.win 6).blk t).view.emb (ix2 p q) = ix2 (⟨t.val * 5000 + p.val, hR⟩ : Fin 50000) q := by
    funext a
    apply Fin.ext
    match a with
    | ⟨0, _⟩ => show win1_6.index t (0 : Fin 2) * 5000 + 1 * p.val = t.val * 5000 + p.val; rw [e6a]; omega
    | ⟨1, _⟩ => show win1_6.index t (1 : Fin 2) * 64 + 1 * q.val = q.val; rw [e6b]; omega
  show k1_pay1 (F := Ideal) (iblk1 V c 0 t) (iblk1 V c 2 t) (iblk1 V c 1 t) (iblk1 V c 3 t) (iblk1 V c 4 t) (iblk1 V c 5 t) (ix2 p q)
      = outputOf V c (((cfg1.win 6).blk t).view.emb (ix2 p q))
  rw [hemb]
  refine (pay1_apply (iblk1 V c 0 t) (iblk1 V c 2 t) (iblk1 V c 1 t) (iblk1 V c 3 t) (iblk1 V c 4 t) (iblk1 V c 5 t) p q).trans ?_
  show _ = logSoftmaxRow (fun c' : Fin 64 => pre (n := 50000) (K := 128) (N := 64) (V c main_v37) (V c main_v27)
      (fun r => V c main_v12 (ix2 r (0 : Fin 1))) (V c main_v39) (V c main_v41) (V c main_arg7) (⟨t.val * 5000 + p.val, hR⟩ : Fin 50000) c') q
  refine congrArg (fun f => logSoftmaxRow f q) (funext fun c' => ?_)
  unfold pre
  refine congrArg₂ (· + ·) (congrArg₂ (· + ·) (Finset.sum_congr rfl fun k _ => ?_) (Finset.sum_congr rfl fun k _ => ?_)) ?_
  · beta_reduce
    rw [blk1_0 V c t (ix2 p k) (ix2 (⟨t.val * 5000 + p.val, hR⟩ : Fin 50000) k) rfl rfl,
      blk1_2 V c t (ix2 p (0 : Fin 1)) (ix2 (⟨t.val * 5000 + p.val, hR⟩ : Fin 50000) (0 : Fin 1)) rfl rfl,
      blk1_3 V c t (ix2 k c')]
  · rw [blk1_1 V c t (ix2 p k) (ix2 (⟨t.val * 5000 + p.val, hR⟩ : Fin 50000) k) rfl rfl, blk1_4 V c t (ix2 k c')]
  · exact blk1_5 V c t (ix1 c')

/-- An index of the result array is in point t's block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v42).slice (win1_6.rect t)).set ↔ _
  rw [View.set_slice_whole, Rect.mem_set_unit]
  exact Iff.rfl

/-- Every row of the result array lies in some point's block: row r in block r / 5000. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, e6a, e6b⟩ := idx1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e6a, ht]; omega
  | ⟨1, _⟩ =>
    show win1_6.index t (1 : Fin 2) * 64 ≤ (i 1).val ∧ (i 1).val < win1_6.index t (1 : Fin 2) * 64 + 64
    rw [e6b]; omega

/-- THE RESULT ARRAY of the second grid, after all its write-backs: the layer function of the entry arrays. -/
theorem output_array (c : Dev nD) : (dat1 V c).arrAt 6 cfg1.N = outputOf V c :=
  (dat1 V c).arrAt_eq_of_cover 6 (outputOf V c) (fun t _ => flushed1 V c t) (cover1)

end Cert.KernelIdeal.OutArrays

end
-- ==== Proof.HostValues.lean ====
/-
  The host operations around the two grids, as named functions of the argument arrays.

  From the 2 × 800000 edge array: row 0 is the source node of each edge, row 1 its target. A negative source index is
  wrapped by adding the node count. The aggregate of a feature array h sums, into each target's row, the feature rows
  of the edge sources: rows of h gathered at the wrapped sources, scatter-added at the targets into zeros. The clipped
  in-degree adds a one per edge at the target and takes the maximum with one. The grids receive the reciprocal of the
  clipped degree as a one-column array, and the weights transposed (and rounded to a narrower float format, which is the
  identity on the extended reals).

  The gather and the scatter are never opened: both programs apply the same ones to the same index arrays.
-/
import proofs.«107025_j120259084718_2_alg».proof.Proof.Gen.KernelIdeal
import proofs.«107025_j120259084718_2_alg».proof.Proof.SageSpec

noncomputable section

namespace Cert.KernelIdeal.HostVal

open Cert.KernelIdeal Cert.KernelIdeal.Facts₀ Cert.KernelIdeal.Facts Idealize.ShloMosaic Idealize.ShloMosaic.ValueIdx

variable {F : FTy → Type} [FloatOps F]

/-- Each edge's source node. -/
def srcOf (e : IVec S2x800000 32) : IVec S800000 32 :=
  shapeCast S800000 (extractStridedSlice S1x800000 ![0, 0] e slices_S2x800000_S1x800000_0_0) shapeCasts_S1x800000_S800000

/-- Each edge's target node. -/
def dstOf (e : IVec S2x800000 32) : IVec S800000 32 :=
  shapeCast S800000 (extractStridedSlice S1x800000 ![1, 0] e slices_S2x800000_S1x800000_1_0) shapeCasts_S1x800000_S800000

/-- The source indices with the negative ones wrapped by the node count. -/
def srcWrap (e : IVec S2x800000 32) : IVec S800000 32 :=
  select (cmpi .slt (srcOf e) (broadcastInDim S800000 ![] bcast_S_S800000 (constantI S_ 32 0#32)))
    (addi (srcOf e) (broadcastInDim S800000 ![] bcast_S_S800000 (constantI S_ 32 50000#32))) (srcOf e)

/-- The aggregate of a feature array: the sources' rows summed into the targets' rows. -/
def aggOf (e : IVec S2x800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstOf e))
    (Host.gather gather_S50000x128_S800000x1_S800000x128_1_0_n_n_0_1_1128 h
      (broadcastInDim S800000x1 ![0] bcast_S800000_S800000x1_0 (srcWrap e)))

/-- The in-degree of each node, clipped below at one. -/
def degOf (e : IVec S2x800000 32) : FVec F S50000 .f32 :=
  maximumf (Host.scatterAdd scatter_S50000_S800000x1_S800000_n_0_0_1
      (broadcastInDim S50000 ![] bcast_S_S50000 (constant S_ .f32 0x00000000#32))
      (broadcastInDim S800000x1 ![0] bcast_S800000_S800000x1_0 (dstOf e))
      (broadcastInDim S800000 ![] bcast_S_S800000 (constant S_ .f32 0x3F800000#32)))
    (broadcastInDim S50000 ![] bcast_S_S50000 (constant S_ .f32 0x3F800000#32))

/-- The reciprocal of the clipped degree, kept as a one-column array. -/
def invDegCol (e : IVec S2x800000 32) : FVec F S50000x1 .f32 :=
  broadcastInDim S50000x1 ![0] bcast_S50000_S50000x1_0
    (Host.divf (broadcastInDim S50000 ![] bcast_S_S50000 (constant S_ .f32 0x3F800000#32)) (degOf e))

/-- A 128 × 128 weight array transposed to (input feature, output feature). -/
def wT128 (w : FVec F S128x128 .f32) : FVec F S128x128 .bf16 :=
  truncf .bf16 (transpose S128x128 [1, 0] w transposes_S128x128_S128x128_1_0) bitsLt_bf16_f32

/-- A 64 × 128 weight array transposed to (input feature, output feature). -/
def wT64 (w : FVec F S64x128 .f32) : FVec F S128x64 .bf16 :=
  truncf .bf16 (transpose S128x64 [1, 0] w transposes_S64x128_S128x64_1_0) bitsLt_bf16_f32

/-- The row scale the grids apply: the reciprocal column read at its one column. -/
def scaleOf (e : IVec S2x800000 32) : Fin 50000 → EReal := fun r => invDegCol (F := Ideal) e (ix2 r (0 : Fin 1))

/-- The first layer's result as a function of the argument arrays. -/
def hiddenVal (e : IVec S2x800000 32) (x : FVec Ideal S50000x128 .f32) (w2 w3 : FVec Ideal S128x128 .f32)
    (b4 : FVec Ideal S128 .f32) : FVec Ideal S50000x128 .f32 :=
  Cert.Sage.hidden (n := 50000) (K := 128) (N := 128) (aggOf e x) x (scaleOf e) (wT128 w2) (wT128 w3) b4

/-- The whole program's result as a function of the argument arrays. -/
def resultVal (e : IVec S2x800000 32) (x : FVec Ideal S50000x128 .f32) (w2 w3 : FVec Ideal S128x128 .f32)
    (b4 : FVec Ideal S128 .f32) (w5 w6 : FVec Ideal S64x128 .f32) (b7 : FVec Ideal S64 .f32) : FVec Ideal S50000x64 .f32 :=
  Cert.Sage.output (n := 50000) (K := 128) (N := 64) (aggOf e (hiddenVal e x w2 w3 b4)) (hiddenVal e x w2 w3 b4) (scaleOf e)
    (wT64 w5) (wT64 w6) b7

end Cert.KernelIdeal.HostVal

end
-- ==== Proof.KernelValue.lean ====
/-
  The idealized kernel program's result as a function of its arguments.

  The first grid is entered with the aggregate of the features, the features, the reciprocal-degree column, the two
  transposed 128 × 128 weight arrays and the first bias; it leaves the first layer's result. The host operations between
  the grids aggregate that result along the same edges and transpose the second layer's weights; they do not touch the
  reciprocal-degree column. The second grid is entered with that aggregate, the first layer's result, the same column,
  the transposed 64 × 128 weights and the second bias, and leaves the program's result. No host operation and no grid
  writes an argument array.
-/
import proofs.«107025_j120259084718_2_alg».proof.Proof.KernelRun
import proofs.«107025_j120259084718_2_alg».proof.Proof.HiddenArray
import proofs.«107025_j120259084718_2_alg».proof.Proof.OutputArray
import proofs.«107025_j120259084718_2_alg».proof.Proof.HostValues

noncomputable section

namespace Cert.KernelIdeal.KVal

open Cert.KernelIdeal Cert.KernelIdeal.Gen Cert.KernelIdeal.HostVal Cert.KernelIdeal.Arrays Cert.KernelIdeal.OutArrays
open Cert.KernelIdeal.Final
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What the first grid is entered with -/

theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp
  try rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp
  try rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp
  try rfl

theorem W1_arg6 (c : Dev nD) : W1 m ρ c (Proc.devRef .tc main_arg6) = m ((c : Thread nD τ).loc main_arg6) := by
  show StableHlo.after hostOps0 (W0 m ρ c) (Proc.devRef .tc main_arg6) = _
  after_results_simp
  try rfl

theorem W1_arg7 (c : Dev nD) : W1 m ρ c (Proc.devRef .tc main_arg7) = m ((c : Thread nD τ).loc main_arg7) := by
  show StableHlo.after hostOps0 (W0 m ρ c) (Proc.devRef .tc main_arg7) = _
  after_results_simp
  try rfl

theorem V1_v22 (c : Dev nD) : V1 m ρ c main_v22
    = aggOf (F := Ideal) (m ((c : Thread nD τ).loc main_arg1)) (m ((c : Thread nD τ).loc main_arg0)) := by
  show StableHlo.after hostOps0 (W0 m ρ c) (Proc.devRef .tc main_v22) = _
  after_results_simp
  try rfl

theorem V1_arg0 (c : Dev nD) : V1 m ρ c main_arg0 = m ((c : Thread nD τ).loc main_arg0) := by
  show StableHlo.after hostOps0 (W0 m ρ c) (Proc.devRef .tc main_arg0) = _
  after_results_simp
  try rfl

theorem V1_v12 (c : Dev nD) : V1 m ρ c main_v12 = invDegCol (F := Ideal) (m ((c : Thread nD τ).loc main_arg1)) := by
  show StableHlo.after hostOps0 (W0 m ρ c) (Proc.devRef .tc main_v12) = _
  after_results_simp
  try rfl

theorem V1_v24 (c : Dev nD) : V1 m ρ c main_v24 = wT128 (F := Ideal) (m ((c : Thread nD τ).loc main_arg2)) := by
  show StableHlo.after hostOps0 (W0 m ρ c) (Proc.devRef .tc main_v24) = _
  after_results_simp
  try rfl

theorem V1_v26 (c : Dev nD) : V1 m ρ c main_v26 = wT128 (F := Ideal) (m ((c : Thread nD τ).loc main_arg3)) := by
  show StableHlo.after hostOps0 (W0 m ρ c) (Proc.devRef .tc main_v26) = _
  after_results_simp
  try rfl

theorem V1_arg4 (c : Dev nD) : V1 m ρ c main_arg4 = m ((c : Thread nD τ).loc main_arg4) := by
  show StableHlo.after hostOps0 (W0 m ρ c) (Proc.devRef .tc main_arg4) = _
  after_results_simp
  try rfl

/-- The first layer's result array is the first layer's function of the arguments. -/
theorem hiddenOf_eq (c : Dev nD) : hiddenOf (V1 m ρ) c
    = hiddenVal (m ((c : Thread nD τ).loc main_arg1)) (m ((c : Thread nD τ).loc main_arg0))
        (m ((c : Thread nD τ).loc main_arg2)) (m ((c : Thread nD τ).loc main_arg3)) (m ((c : Thread nD τ).loc main_arg4)) := by
  unfold hiddenOf hiddenVal scaleOf
  rw [V1_v22, V1_arg0, V1_v12, V1_v24, V1_v26, V1_arg4]

/-! ## What the first grid leaves, where the second part of the program reads it -/

theorem W2_v1 (c : Dev nD) : W2 m ρ c (Proc.devRef .tc main_v1) = srcOf (m ((c : Thread nD τ).loc main_arg1)) :=
  (W2_of_ne m ρ c main_v1 (by decide)).trans (W1_v1 m ρ c)

theorem W2_v3 (c : Dev nD) : W2 m ρ c (Proc.devRef .tc main_v3) = dstOf (m ((c : Thread nD τ).loc main_arg1)) :=
  (W2_of_ne m ρ c main_v3 (by decide)).trans (W1_v3 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_v27 (c : Dev nD) : W2 m ρ c (Proc.devRef .tc main_v27) = hiddenOf (V1 m ρ) c :=
  (W2_arr m ρ c 6).trans (hidden_array (V1 m ρ) c)

theorem W2_v12 (c : Dev nD) : W2 m ρ c (Proc.devRef .tc main_v12) = invDegCol (F := Ideal) (m ((c : Thread nD τ).loc main_arg1)) :=
  (W2_arr m ρ c 2).trans (((dat0 (V1 m ρ) c).arrAt_in 2 rfl _).trans ((A_eq0 (V1 m ρ) c 2).trans (V1_v12 m ρ c)))

/-! ## What the second grid is entered with -/

theorem V3_v37 (c : Dev nD) : V3 m ρ c main_v37 = aggOf (F := Ideal) (m ((c : Thread nD τ).loc main_arg1)) (hiddenOf (V1 m ρ) c) := by
  show StableHlo.after hostOps1 (W2 m ρ c) (Proc.devRef .tc main_v37) = _
  after_results_simp
  rw [W2_v1, W2_v3, W2_v27]
  try rfl

theorem V3_v27 (c : Dev nD) : V3 m ρ c main_v27 = hiddenOf (V1 m ρ) c := by
  show StableHlo.after hostOps1 (W2 m ρ c) (Proc.devRef .tc main_v27) = _
  after_results_simp
  exact W2_v27 m ρ c

theorem V3_v12 (c : Dev nD) : V3 m ρ c main_v12 = invDegCol (F := Ideal) (m ((c : Thread nD τ).loc main_arg1)) := by
  show StableHlo.after hostOps1 (W2 m ρ c) (Proc.devRef .tc main_v12) = _
  after_results_simp
  exact W2_v12 m ρ c

theorem V3_v39 (c : Dev nD) : V3 m ρ c main_v39 = wT64 (F := Ideal) (m ((c : Thread nD τ).loc main_arg5)) := by
  show StableHlo.after hostOps1 (W2 m ρ c) (Proc.devRef .tc main_v39) = _
  after_results_simp
  rw [W2_arg5]
  try rfl

theorem V3_v41 (c : Dev nD) : V3 m ρ c main_v41 = wT64 (F := Ideal) (m ((c : Thread nD τ).loc main_arg6)) := by
  show StableHlo.after hostOps1 (W2 m ρ c) (Proc.devRef .tc main_v41) = _
  after_results_simp
  rw [W2_arg6]
  try rfl

theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c

/-! ## The result -/

/-- The result buffer at the last boundary is the program's function of the arguments. -/
theorem kernel_value (c : Dev nD) : W4 m ρ c (Proc.devRef .tc main_v42)
    = resultVal (m ((c : Thread nD τ).loc main_arg1)) (m ((c : Thread nD τ).loc main_arg0))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 6).trans ((output_array (V3 m ρ) c).trans ?_)
  unfold outputOf resultVal scaleOf
  rw [V3_v37, V3_v27, V3_v12, V3_v39, V3_v41, V3_arg7, hiddenOf_eq]

/-- THE RUN, READ: every weakly fair execution terminates with the result array at the program's function of the
    arguments and the argument arrays unchanged. -/
theorem run_value : θ_run defs (onTc (τ := τ) (main (F := Ideal))) ⟨m, fun _ => 0, ρ⟩ (fun r => ∀ c : Dev nD,
      r.2.mem ((c.tc : Thread nD τ).loc main_v42)
        = resultVal (m ((c : Thread nD τ).loc main_arg1)) (m ((c : Thread nD τ).loc main_arg0))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ result_mem).trans (kernel_value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_final m ρ)

end Cert.KernelIdeal.KVal

end
-- ==== Proof.RefLayer.lean ====
/-
  The reference's host operations for one layer, read entry by entry on the extended reals.

  The dense part: the aggregate divided by the clipped degree (broadcast along the features), times the transposed left
  weights, plus the features times the transposed right weights, plus the bias broadcast down the rows. Because the
  divisor is never zero, the quotient a / d is a * (1 / d), so the entry (r, c) is the layer's pre-activation with the
  row scale 1 / d r. The log-softmax: the row maximum (a fold of max from minus infinity; taking the maximum with minus
  infinity once more changes nothing) is subtracted, the exponentials are summed along the row starting from zero,
  and the logarithm of the sum is subtracted.
-/
import proofs.«107025_j120259084718_2_alg».proof.Proof.Gen.ReferenceIdeal
import proofs.«107025_j120259084718_2_alg».proof.Proof.LibDenseLayer
import proofs.«107025_j120259084718_2_alg».proof.Proof.LibRowReduce
import proofs.«107025_j120259084718_2_alg».proof.Proof.LibColumnRowRead
import proofs.«107025_j120259084718_2_alg».proof.Proof.SageSpec
import Idealize.ShloMosaic.Lib.IdealHost

noncomputable section

open scoped BigOperators

namespace Cert.ReferenceIdeal.Layer

open Cert.ReferenceIdeal Idealize.ShloMosaic Idealize.ShloMosaic.ValueIdx Cert.Sage

/-- The first layer's host products contract the 128 input features. -/
theorem plain128R : PlainDot dot_S50000x128_S128x128_S50000x128_1_0_0_1_n_n where
  rank := rfl
  size := rfl
  l0 := fun j q => by
    unfold DotDims.lhsIdx
    rw [dif_neg (show ¬(0 : Fin S50000x128.rank) ∈ dot_S50000x128_S128x128_S50000x128_1_0_0_1_n_n.lhsBatch by decide),
      dif_pos (show (0 : Fin S50000x128.rank) ∈ dot_S50000x128_S128x128_S50000x128_1_0_0_1_n_n.lhsNonContracting by decide)]
    rfl
  l1 := fun j q => dot_S50000x128_S128x128_S50000x128_1_0_0_1_n_n.lhsIdx_val_of_single rfl j q
  r0 := fun j q => dot_S50000x128_S128x128_S50000x128_1_0_0_1_n_n.rhsIdx_val_of_single rfl j q
  r1 := fun j q => by
    unfold DotDims.rhsIdx
    rw [dif_neg (show ¬(1 : Fin S128x128.rank) ∈ dot_S50000x128_S128x128_S50000x128_1_0_0_1_n_n.rhsBatch by decide),
      dif_pos (show (1 : Fin S128x128.rank) ∈ dot_S50000x128_S128x128_S50000x128_1_0_0_1_n_n.rhsNonContracting by decide)]
    rfl

/-- The second layer's host products contract the 128 hidden features. -/
theorem plain64R : PlainDot dot_S50000x128_S128x64_S50000x64_1_0_0_1_n_n where
  rank := rfl
  size := rfl
  l0 := fun j q => by
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  l1 := fun j q => dot_S50000x128_S128x64_S50000x64_1_0_0_1_n_n.lhsIdx_val_of_single rfl j q
  r0 := fun j q => dot_S50000x128_S128x64_S50000x64_1_0_0_1_n_n.rhsIdx_val_of_single rfl j q
  r1 := fun j q => by
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl

/-- The host's plain product at (p, q): the sum over the inner position. -/
theorem hostDot_ix2 {M K N : ℕ} {D : DotDims (⟨2, ![M, K]⟩ : Shape) (⟨2, ![K, N]⟩ : Shape) (⟨2, ![M, N]⟩ : Shape)} (hD : PlainDot D)
    (l : FVec Ideal (⟨2, ![M, K]⟩ : Shape) .f32) (r : FVec Ideal (⟨2, ![K, N]⟩ : Shape) .f32) (p : Fin M) (q : Fin N) :
    Host.dotGeneral D none l r (ix2 p q) = ∑ k : Fin K, (l (ix2 p k) : EReal) * r (ix2 k q) :=
  dotGeneral_ix2_any hD none _ l r p q

variable {α : Type}

/-- A column broadcast along the lanes, read at (p, c): the column's entry p. -/
theorem bcast_a1_ab {a b : ℕ} (ha : a ≠ 1) (v : (⟨2, ![a, 1]⟩ : Shape).Idx → α)
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 v (ix2 p c) = v (ix2 p (0 : Fin 1)) :=
  broadcastInDim_apply (![0, 1] : Fin 2 → Fin 2) h2 v (ix2 p c) (ix2 p (0 : Fin 1)) (fun ax => by
    match ax with
    | ⟨0, _⟩ => show p.val = if a = 1 then 0 else p.val; rw [if_neg ha]
    | ⟨1, _⟩ => rfl)

/-- A vector kept as a column, read at (p, 0): the vector's entry p. -/
theorem bcast_a_a1 {a : ℕ} (ha : a ≠ 1) (v : (⟨1, ![a]⟩ : Shape).Idx → α)
    (h1 : (⟨1, ![a]⟩ : Shape).BroadcastsInDim ⟨2, ![a, 1]⟩ (![0] : Fin 1 → Fin 2)) (p : Fin a) :
    broadcastInDim ⟨2, ![a, 1]⟩ (![0] : Fin 1 → Fin 2) h1 v (ix2 p (0 : Fin 1)) = v (ix1 p) :=
  broadcastInDim_apply (![0] : Fin 1 → Fin 2) h1 v (ix2 p (0 : Fin 1)) (ix1 p) (fun ax => by
    match ax with
    | ⟨0, _⟩ => show p.val = if a = 1 then 0 else p.val; rw [if_neg ha])

/-- A scalar broadcast to any shape, read anywhere: the scalar. -/
theorem bcast_scalar {t : Shape} (v : S_.Idx → α) (h : S_.BroadcastsInDim t (![] : Fin 0 → Fin t.rank)) (j : t.Idx) :
    broadcastInDim t (![] : Fin 0 → Fin t.rank) h v j = v (fun a => a.elim0) :=
  broadcastInDim_apply (![] : Fin 0 → Fin t.rank) h v j (fun a => a.elim0) (fun a => a.elim0)

/-- The host's sum along the columns at row p: the initial value plus the sum of the row. -/
theorem hostRowSum_ix1 {φ : FTy} {a b : ℕ} (x : FVec Ideal (⟨2, ![a, b]⟩ : Shape) φ) {u : Shape} (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduceAdd x init h' hu (ix1 p) = (init (Shape.Idx.first hu) : EReal) + ∑ k : Fin b, (x (ix2 p k) : EReal) :=
  (Ideal.hostReduceAdd_single h' h x (init (Shape.Idx.first hu)) (ix1 p)).trans
    (congrArg (fun s => (init (Shape.Idx.first hu) : EReal) + s)
      (Finset.sum_congr rfl fun k _ => congrArg x (lift_cols_ix2 h p k)))

/-- The f32 word for minus infinity is the least extended real. -/
theorem ofBits_neg_inf : Ideal.ofBits .f32 0xFF800000#32 = (⊥ : EReal) := by
  simp [Ideal.ofBits, Ideal.ieee]

/-- THE DENSE PART at (r, c): the layer's pre-activation with the row scale 1 / d r. -/
theorem refDense_apply {N : ℕ} {D : DotDims (⟨2, ![50000, 128]⟩ : Shape) (⟨2, ![128, N]⟩ : Shape) (⟨2, ![50000, N]⟩ : Shape)}
    (hD : PlainDot D) (hN : N ≠ 1) (A X : FVec Ideal (⟨2, ![50000, 128]⟩ : Shape) .f32) (dd : FVec Ideal (⟨1, ![50000]⟩ : Shape) .f32)
    (wl wr : FVec Ideal (⟨2, ![128, N]⟩ : Shape) .f32) (b : FVec Ideal (⟨1, ![N]⟩ : Shape) .f32)
    (h1 : (⟨1, ![50000]⟩ : Shape).BroadcastsInDim ⟨2, ![50000, 1]⟩ (![0] : Fin 1 → Fin 2))
    (h2 : (⟨2, ![50000, 1]⟩ : Shape).BroadcastsInDim ⟨2, ![50000, 128]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![50000, N]⟩ (![0, 1] : Fin 2 → Fin 2))
    (hd : ∀ r : Fin 50000, (dd (ix1 r) : EReal) ≠ 0) (r : Fin 50000) (c : Fin N) :
    addf (addf (Host.dotGeneral D none (Host.divf A (broadcastInDim ⟨2, ![50000, 128]⟩ (![0, 1] : Fin 2 → Fin 2) h2
          (broadcastInDim ⟨2, ![50000, 1]⟩ (![0] : Fin 1 → Fin 2) h1 dd))) wl) (Host.dotGeneral D none X wr))
      (broadcastInDim ⟨2, ![50000, N]⟩ (![0, 1] : Fin 2 → Fin 2) h4 (broadcastInDim ⟨2, ![1, N]⟩ (![1] : Fin 1 → Fin 2) h3 b)) (ix2 r c)
      = pre (n := 50000) (K := 128) (N := N) A X (fun r => Ideal.div 1 (dd (ix1 r))) wl wr b r c := by
  show (Host.dotGeneral D none (Host.divf A (broadcastInDim ⟨2, ![50000, 128]⟩ (![0, 1] : Fin 2 → Fin 2) h2
          (broadcastInDim ⟨2, ![50000, 1]⟩ (![0] : Fin 1 → Fin 2) h1 dd))) wl (ix2 r c)
      + Host.dotGeneral D none X wr (ix2 r c) : EReal)
      + broadcastInDim ⟨2, ![50000, N]⟩ (![0, 1] : Fin 2 → Fin 2) h4 (broadcastInDim ⟨2, ![1, N]⟩ (![1] : Fin 1 → Fin 2) h3 b) (ix2 r c) = _
  rw [hostDot_ix2 hD, hostDot_ix2 hD, Cert.Gcn.ColumnRowRead.bcast_row_apply hN]
  unfold pre
  refine congrArg₂ (· + ·) (congrArg₂ (· + ·) (Finset.sum_congr rfl fun k _ => ?_) rfl) rfl
  show Ideal.div (A (ix2 r k)) (broadcastInDim ⟨2, ![50000, 128]⟩ (![0, 1] : Fin 2 → Fin 2) h2
      (broadcastInDim ⟨2, ![50000, 1]⟩ (![0] : Fin 1 → Fin 2) h1 dd) (ix2 r k)) * (wl (ix2 k c) : EReal) = _
  rw [Cert.Gcn.ColumnRowRead.bcast_col_apply (by decide : (50000 : ℕ) ≠ 1), div_eq_mul_recip (hd r)]

/-- The host's pointwise operations at an index (over variables, so nothing of full size is ever unfolded). -/
theorem hostLog_apply {s : Shape} (x : FVec Ideal s .f32) (i : s.Idx) : Host.log x i = Ideal.log (x i : EReal) := rfl
theorem hostExp_apply {s : Shape} (x : FVec Ideal s .f32) (i : s.Idx) : Host.exp x i = Ideal.exp (x i : EReal) := rfl
theorem subf_apply' {s : Shape} (x y : FVec Ideal s .f32) (i : s.Idx) : subf x y i = (x i : EReal) - (y i : EReal) := rfl
theorem maximumf_apply' {s : Shape} (x y : FVec Ideal s .f32) (i : s.Idx) : maximumf x y i = max (x i : EReal) (y i : EReal) := rfl
theorem constant_apply' {s : Shape} (w : BitVec FTy.f32.bits) (i : s.Idx) : constant (F := Ideal) s .f32 w i = Ideal.ofBits .f32 w := rfl

/-- THE HOST LOG-SOFTMAX at (p, q): the log-softmax of row p at position q. -/
theorem refSoftmax_apply (z : FVec Ideal S50000x64 .f32)
    (hb0 : S_.BroadcastsInDim S50000 (![] : Fin 0 → Fin S50000.rank))
    (hb1 : S50000.BroadcastsInDim S50000x1 (![0] : Fin 1 → Fin 2))
    (hb2 : S50000x1.BroadcastsInDim S50000x64 (![0, 1] : Fin 2 → Fin 2))
    (hrt : S50000x64.ReducesTo [1] S50000) (hu : 0 < S_.numel) (p : Fin 50000) (q : Fin 64) :
    subf (subf z (broadcastInDim S50000x64 ![0, 1] hb2 (broadcastInDim S50000x1 ![0] hb1
          (maximumf (broadcastInDim S50000 ![] hb0 (constant S_ .f32 0xFF800000#32))
            (Host.reduce FloatOps.maximumf z (constant S_ .f32 0xFF800000#32) hrt hu)))))
      (broadcastInDim S50000x64 ![0, 1] hb2 (Host.log (broadcastInDim S50000x1 ![0] hb1
          (Host.reduceAdd (Host.exp (subf z (broadcastInDim S50000x64 ![0, 1] hb2 (broadcastInDim S50000x1 ![0] hb1
              (maximumf (broadcastInDim S50000 ![] hb0 (constant S_ .f32 0xFF800000#32))
                (Host.reduce FloatOps.maximumf z (constant S_ .f32 0xFF800000#32) hrt hu))))))
            (constant S_ .f32 0x00000000#32) hrt hu)))) (ix2 p q)
      = logSoftmaxRow (fun c : Fin 64 => (z (ix2 p c) : EReal)) q := by
  have hr : S50000x64.Reduces [1] S50000 := by decide
  have h50 : (50000 : ℕ) ≠ 1 := by decide
  have hmax : ∀ c : Fin 64, broadcastInDim S50000x64 ![0, 1] hb2 (broadcastInDim S50000x1 ![0] hb1
        (maximumf (broadcastInDim S50000 ![] hb0 (constant S_ .f32 0xFF800000#32))
          (Host.reduce FloatOps.maximumf z (constant S_ .f32 0xFF800000#32) hrt hu))) (ix2 p c)
      = rowMax (fun c : Fin 64 => (z (ix2 p c) : EReal)) := fun c => by
    rw [bcast_a1_ab h50, bcast_a_a1 h50, maximumf_apply', bcast_scalar, constant_apply',
      hostRowMax_ix1 z _ hrt hr hu p, constant_apply', ofBits_neg_inf, bot_max]
    rfl
  rw [subf_apply', subf_apply', hmax q, bcast_a1_ab h50, hostLog_apply, bcast_a_a1 h50,
    hostRowSum_ix1 _ _ hrt hr hu p, constant_apply', Ideal.ofBits_zero_f32, zero_add]
  unfold logSoftmaxRow
  refine congrArg (fun t => ((z (ix2 p q) : EReal) - rowMax (fun c : Fin 64 => (z (ix2 p c) : EReal))) - Ideal.log t)
    (Finset.sum_congr rfl fun k _ => ?_)
  rw [hostExp_apply, subf_apply', hmax k]

/-- The host's positive part at an index. -/
theorem refRelu_apply (z : FVec Ideal S50000x128 .f32)
    (hb : S_.BroadcastsInDim S50000x128 (![] : Fin 0 → Fin S50000x128.rank)) (i : S50000x128.Idx) :
    maximumf z (broadcastInDim S50000x128 ![] hb (constant S_ .f32 0x00000000#32)) i = max (z i : EReal) 0 := by
  show max (z i : EReal) (broadcastInDim S50000x128 ![] hb (constant S_ .f32 0x00000000#32) i) = _
  rw [bcast_scalar]
  show max (z i : EReal) (Ideal.ofBits .f32 0x00000000#32) = _
  rw [Ideal.ofBits_zero_f32]

end Cert.ReferenceIdeal.Layer

end
-- ==== Proof.RefHelpers.lean ====
/-
  Small facts shared by the two halves of the reference's line of host operations: two lines run one after the other
  are the second run from what the first leaves; the clipped degree (a maximum with one) is never zero; the row scale
  the grids apply, read off the reciprocal column, is 1 / (clipped degree).
-/
import proofs.«107025_j120259084718_2_alg».proof.Proof.RefRunBase
import proofs.«107025_j120259084718_2_alg».proof.Proof.RefLayer
import proofs.«107025_j120259084718_2_alg».proof.Proof.HostValues
import Idealize.ShloMosaic.Lib.IdealHost

noncomputable section

open scoped BigOperators

namespace Cert.ReferenceIdeal.RVal

open Cert.ReferenceIdeal Cert.ReferenceIdeal.Gen Cert.ReferenceIdeal.RunP Cert.ReferenceIdeal.Layer Cert.Sage
open Idealize.ShloMosaic Idealize.ShloMosaic.TcCoe Idealize.SL.Sem Idealize.ShloMosaic.StableHlo Idealize.ShloMosaic.ValueIdx
open Cert.KernelIdeal.HostVal (srcOf dstOf aggOf degOf invDegCol scaleOf hiddenVal resultVal wT128 wT64)

/-- Two lines of operations run one after the other: the second from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The host's quotient at an index (over variables, so nothing of full size is unfolded). -/
theorem hostDivf_apply' {s : Shape} (x y : FVec Ideal s .f32) (i : s.Idx) :
    Host.divf x y i = Ideal.div (x i : EReal) (y i : EReal) := rfl

/-- The clipped degree is not zero. -/
theorem degOf_ne_zero (e : IVec Cert.KernelIdeal.S2x800000 32) (r : Fin 50000) : (degOf (F := Ideal) e (ix1 r) : EReal) ≠ 0 := by
  unfold degOf
  rw [maximumf_apply', bcast_scalar, constant_apply', Ideal.ofBits_one_f32]
  exact max_one_ne_zero _

/-- The row scale the grids apply is the reciprocal of the clipped degree. -/
theorem scaleOf_apply (e : IVec Cert.KernelIdeal.S2x800000 32) (r : Fin 50000) :
    scaleOf e r = Ideal.div 1 (degOf (F := Ideal) e (ix1 r)) := by
  unfold scaleOf invDegCol
  rw [bcast_a_a1 (by decide : (50000 : ℕ) ≠ 1), hostDivf_apply', bcast_scalar, constant_apply', Ideal.ofBits_one_f32]

end Cert.ReferenceIdeal.RVal

end
-- ==== Proof.RefHead.lean ====
/-
  The first half of the reference's line of host operations, run from any contents that hold the argument arrays: the
  edge sources and targets, the untouched second-layer parameters, and the first layer's result. The first layer
  divides the aggregate by the clipped degree; that divisor is never zero, so the quotient is the product with the
  reciprocal, and the result is the first layer's function of the arguments, entry by entry.
-/
import proofs.«107025_j120259084718_2_alg».proof.Proof.RefRunBase
import proofs.«107025_j120259084718_2_alg».proof.Proof.RefLayer
import proofs.«107025_j120259084718_2_alg».proof.Proof.HostValues
import Idealize.ShloMosaic.Lib.IdealHost
import proofs.«107025_j120259084718_2_alg».proof.Proof.RefHelpers

noncomputable section

open scoped BigOperators

namespace Cert.ReferenceIdeal.RVal

open Cert.ReferenceIdeal Cert.ReferenceIdeal.Gen Cert.ReferenceIdeal.RunP Cert.ReferenceIdeal.Layer Cert.Sage
open Idealize.ShloMosaic Idealize.ShloMosaic.TcCoe Idealize.SL.Sem Idealize.ShloMosaic.StableHlo Idealize.ShloMosaic.ValueIdx
open Cert.KernelIdeal.HostVal (srcOf dstOf aggOf degOf invDegCol scaleOf hiddenVal resultVal wT128 wT64)

variable (W : Valuation τ sig (Elt Ideal))

theorem head_v1 (e : IVec Cert.KernelIdeal.S2x800000 32) (h1 : W (Proc.devRef .tc main_arg1) = e) :
    after (opsA (F := Ideal)) W (Proc.devRef .tc main_v1) = srcOf e := by
  after_results_simp
  simp only [h1]
  try rfl

theorem head_v3 (e : IVec Cert.KernelIdeal.S2x800000 32) (h1 : W (Proc.devRef .tc main_arg1) = e) :
    after (opsA (F := Ideal)) W (Proc.devRef .tc main_v3) = dstOf e := by
  after_results_simp
  simp only [h1]
  try rfl

theorem head_arg5 : after (opsA (F := Ideal)) W (Proc.devRef .tc main_arg5) = W (Proc.devRef .tc main_arg5) := by
  after_results_simp

theorem head_arg6 : after (opsA (F := Ideal)) W (Proc.devRef .tc main_arg6) = W (Proc.devRef .tc main_arg6) := by
  after_results_simp

theorem head_arg7 : after (opsA (F := Ideal)) W (Proc.devRef .tc main_arg7) = W (Proc.devRef .tc main_arg7) := by
  after_results_simp

set_option maxRecDepth 200000 in
/-- The first layer's result, as the reference computes it, is the first layer's function of the arguments. -/
theorem head_v31 (e : IVec Cert.KernelIdeal.S2x800000 32) (x : FVec Ideal Cert.KernelIdeal.S50000x128 .f32)
    (w2 w3 : FVec Ideal Cert.KernelIdeal.S128x128 .f32) (b4 : FVec Ideal Cert.KernelIdeal.S128 .f32)
    (h0 : W (Proc.devRef .tc main_arg0) = x) (h1 : W (Proc.devRef .tc main_arg1) = e)
    (h2 : W (Proc.devRef .tc main_arg2) = w2) (h3 : W (Proc.devRef .tc main_arg3) = w3)
    (h4 : W (Proc.devRef .tc main_arg4) = b4) :
    after (opsA (F := Ideal)) W (Proc.devRef .tc main_v31) = hiddenVal e x w2 w3 b4 := by
  after_results_simp
  simp only [TRef.ofBuf, TRef.toBuf, cast_eq, h0, h1, h2, h3, h4]
  funext i
  obtain ⟨r, q, rfl⟩ : ∃ (r : Fin 50000) (q : Fin 128), i = ix2 r q := ⟨i 0, i 1, eq_ix2 i⟩
  refine (refRelu_apply _ _ _).trans ?_
  unfold hiddenVal Cert.Sage.hidden
  refine congrArg (fun t => max t 0) ?_
  refine (refDense_apply plain128R (by decide) _ _ _ _ _ _ _ _ _ _ (fun r => degOf_ne_zero e r) r q).trans ?_
  rw [← (funext fun r => (scaleOf_apply e r).symm :
    (fun r : Fin 50000 => Ideal.div 1 (degOf (F := Ideal) e (ix1 r))) = scaleOf e)]
  rfl

end Cert.ReferenceIdeal.RVal

end
-- ==== Proof.RefTail.lean ====
/-
  The second half of the reference's line of host operations, run from any contents that hold the first layer's result,
  the edge sources and targets and the second layer's parameters: the aggregate of the first layer's result along the
  same edges, the second dense layer with the aggregate divided by the (never zero) clipped degree, and each row's
  log-softmax. Entry by entry this is the second layer's function.
-/
import proofs.«107025_j120259084718_2_alg».proof.Proof.RefRunBase
import proofs.«107025_j120259084718_2_alg».proof.Proof.RefLayer
import proofs.«107025_j120259084718_2_alg».proof.Proof.HostValues
import Idealize.ShloMosaic.Lib.IdealHost
import proofs.«107025_j120259084718_2_alg».proof.Proof.RefHelpers

noncomputable section

open scoped BigOperators

namespace Cert.ReferenceIdeal.RVal

open Cert.ReferenceIdeal Cert.ReferenceIdeal.Gen Cert.ReferenceIdeal.RunP Cert.ReferenceIdeal.Layer Cert.Sage
open Idealize.ShloMosaic Idealize.ShloMosaic.TcCoe Idealize.SL.Sem Idealize.ShloMosaic.StableHlo Idealize.ShloMosaic.ValueIdx
open Cert.KernelIdeal.HostVal (srcOf dstOf aggOf degOf invDegCol scaleOf hiddenVal resultVal wT128 wT64)

/-! ## The second part: from the first layer's result to the program's result -/

set_option maxRecDepth 200000 in
/-- From contents holding the first layer's result, the index arrays and the second layer's parameters, the second
    part ends with the program's function of the arguments in the result buffer. -/
theorem tail_value (W : Valuation τ sig (Elt Ideal)) (e : IVec Cert.KernelIdeal.S2x800000 32)
    (H : FVec Ideal Cert.KernelIdeal.S50000x128 .f32) (w5 w6 : FVec Ideal Cert.KernelIdeal.S64x128 .f32)
    (b7 : FVec Ideal Cert.KernelIdeal.S64 .f32)
    (h31 : W (Proc.devRef .tc main_v31) = H) (h1 : W (Proc.devRef .tc main_v1) = srcOf e)
    (h3 : W (Proc.devRef .tc main_v3) = dstOf e) (h5 : W (Proc.devRef .tc main_arg5) = w5)
    (h6 : W (Proc.devRef .tc main_arg6) = w6) (h7 : W (Proc.devRef .tc main_arg7) = b7) :
    after (opsB (F := Ideal)) W (Proc.devRef .tc main_v59)
      = output (n := 50000) (K := 128) (N := 64) (aggOf (F := Ideal) e H) H (scaleOf e) (wT64 (F := Ideal) w5) (wT64 (F := Ideal) w6) b7 := by
  after_results_simp
  simp only [TRef.ofBuf, TRef.toBuf, cast_eq, h31, h1, h3, h5, h6, h7]
  funext i
  obtain ⟨r, q, rfl⟩ : ∃ (r : Fin 50000) (q : Fin 64), i = ix2 r q := ⟨i 0, i 1, eq_ix2 i⟩
  refine (refSoftmax_apply _ _ _ _ _ _ r q).trans ?_
  unfold output
  refine congrArg (fun f => logSoftmaxRow f q) (funext fun c' => ?_)
  refine (refDense_apply plain64R (by decide) _ _ _ _ _ _ _ _ _ _ (fun r => degOf_ne_zero e r) r c').trans ?_
  rw [← (funext fun r => (scaleOf_apply e r).symm :
    (fun r : Fin 50000 => Ideal.div 1 (degOf (F := Ideal) e (ix1 r))) = scaleOf e)]
  rfl

end Cert.ReferenceIdeal.RVal

end
-- ==== Proof.RefValue.lean ====
/-
  The idealized reference's result as the same function of the arguments as the kernel program's.

  The reference is one line of host operations. Its list of operations is kept in two halves, cut after the first layer's result: what the buffers hold after
  the whole line is what they hold after the second part run from the contents the first part leaves. The first part
  computes the aggregate of the features, the clipped degree, the dense layer with the aggregate DIVIDED by the clipped
  degree, and the positive part. The kernel program multiplies by the reciprocal of the same clipped degree instead;
  the clipped degree is a maximum with one, so it is not zero, and the two agree entry by entry. The second part
  aggregates the first layer's result along the same edges, applies the second dense layer in the same way and the
  log-softmax of each row. The gather and the scatter-add are the same operations on the same index arrays in both
  programs and are never opened.
-/
import proofs.«107025_j120259084718_2_alg».proof.Proof.RefRunBase
import proofs.«107025_j120259084718_2_alg».proof.Proof.RefLayer
import proofs.«107025_j120259084718_2_alg».proof.Proof.HostValues
import Idealize.ShloMosaic.Lib.IdealHost
import proofs.«107025_j120259084718_2_alg».proof.Proof.RefHelpers
import proofs.«107025_j120259084718_2_alg».proof.Proof.RefHead
import proofs.«107025_j120259084718_2_alg».proof.Proof.RefTail

noncomputable section

open scoped BigOperators

namespace Cert.ReferenceIdeal.RVal

open Cert.ReferenceIdeal Cert.ReferenceIdeal.Gen Cert.ReferenceIdeal.RunP Cert.ReferenceIdeal.Layer Cert.Sage
open Idealize.ShloMosaic Idealize.ShloMosaic.TcCoe Idealize.SL.Sem Idealize.ShloMosaic.StableHlo Idealize.ShloMosaic.ValueIdx
open Cert.KernelIdeal.HostVal (srcOf dstOf aggOf degOf invDegCol scaleOf hiddenVal resultVal wT128 wT64)

variable (m : (ℓ : Loc nD τ sig) → Buf (Elt Ideal) ℓ)

/-- The whole line is its first half followed by its second half. -/
theorem after_ops (V : Valuation τ sig (Elt Ideal)) :
    after (ops (F := Ideal)) V = after (opsB (F := Ideal)) (after (opsA (F := Ideal)) V) :=
  after_append (opsA (F := Ideal)) (opsB (F := Ideal)) V

/-! ## The whole line -/

/-- THE REFERENCE'S RESULT is the kernel program's function of the arguments. -/
theorem ref_value (c : Dev nD) : after (ops (F := Ideal)) (launchContents m c) (Proc.devRef .tc main_v59)
    = resultVal (m ((c.tc : Thread nD τ).loc main_arg1)) (m ((c.tc : Thread nD τ).loc main_arg0))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [after_ops]
  exact tail_value (after (opsA (F := Ideal)) (launchContents m c)) (m ((c.tc : Thread nD τ).loc main_arg1))
    (hiddenVal (m ((c.tc : Thread nD τ).loc main_arg1)) (m ((c.tc : Thread nD τ).loc main_arg0))
      (m ((c.tc : Thread nD τ).loc main_arg2)) (m ((c.tc : Thread nD τ).loc main_arg3)) (m ((c.tc : Thread nD τ).loc main_arg4)))
    (m ((c.tc : Thread nD τ).loc main_arg5)) (m ((c.tc : Thread nD τ).loc main_arg6)) (m ((c.tc : Thread nD τ).loc main_arg7))
    (head_v31 (launchContents m c) _ _ _ _ _ rfl rfl rfl rfl rfl)
    (head_v1 (launchContents m c) _ rfl) (head_v3 (launchContents m c) _ rfl)
    ((head_arg5 (launchContents m c)).trans rfl) ((head_arg6 (launchContents m c)).trans rfl)
    ((head_arg7 (launchContents m c)).trans rfl)

/-! No operation writes an argument array. -/

set_option maxHeartbeats 2000000 in
theorem ref_arg0 (c : Dev nD) :
    after (ops (F := Ideal)) (launchContents m c) (Proc.devRef .tc main_arg0) = m ((c.tc : Thread nD τ).loc main_arg0) := by
  rw [after_ops]; after_results_simp <;> rfl

set_option maxHeartbeats 2000000 in
theorem ref_arg1 (c : Dev nD) :
    after (ops (F := Ideal)) (launchContents m c) (Proc.devRef .tc main_arg1) = m ((c.tc : Thread nD τ).loc main_arg1) := by
  rw [after_ops]; after_results_simp <;> rfl

set_option maxHeartbeats 2000000 in
theorem ref_arg2 (c : Dev nD) :
    after (ops (F := Ideal)) (launchContents m c) (Proc.devRef .tc main_arg2) = m ((c.tc : Thread nD τ).loc main_arg2) := by
  rw [after_ops]; after_results_simp <;> rfl

set_option maxHeartbeats 2000000 in
theorem ref_arg3 (c : Dev nD) :
    after (ops (F := Ideal)) (launchContents m c) (Proc.devRef .tc main_arg3) = m ((c.tc : Thread nD τ).loc main_arg3) := by
  rw [after_ops]; after_results_simp <;> rfl

set_option maxHeartbeats 2000000 in
theorem ref_arg4 (c : Dev nD) :
    after (ops (F := Ideal)) (launchContents m c) (Proc.devRef .tc main_arg4) = m ((c.tc : Thread nD τ).loc main_arg4) := by
  rw [after_ops]; after_results_simp <;> rfl

set_option maxHeartbeats 2000000 in
theorem ref_arg5 (c : Dev nD) :
    after (ops (F := Ideal)) (launchContents m c) (Proc.devRef .tc main_arg5) = m ((c.tc : Thread nD τ).loc main_arg5) := by
  rw [after_ops]; after_results_simp <;> rfl

set_option maxHeartbeats 2000000 in
theorem ref_arg6 (c : Dev nD) :
    after (ops (F := Ideal)) (launchContents m c) (Proc.devRef .tc main_arg6) = m ((c.tc : Thread nD τ).loc main_arg6) := by
  rw [after_ops]; after_results_simp <;> rfl

set_option maxHeartbeats 2000000 in
theorem ref_arg7 (c : Dev nD) :
    after (ops (F := Ideal)) (launchContents m c) (Proc.devRef .tc main_arg7) = m ((c.tc : Thread nD τ).loc main_arg7) := by
  rw [after_ops]; after_results_simp <;> rfl

/-- THE RUN, READ: every weakly fair execution of the reference terminates with the result array at the program's
    function of the arguments and the argument arrays unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v59)
        = resultVal (m ((c.tc : Thread nD τ).loc main_arg1)) (m ((c.tc : Thread nD τ).loc main_arg0))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_v59).trans (ref_value m c),
     (h c main_arg0).trans (ref_arg0 m c),
     (h c main_arg1).trans (ref_arg1 m c),
     (h c main_arg2).trans (ref_arg2 m c),
     (h c main_arg3).trans (ref_arg3 m c),
     (h c main_arg4).trans (ref_arg4 m c),
     (h c main_arg5).trans (ref_arg5 m c),
     (h c main_arg6).trans (ref_arg6 m c),
     (h c main_arg7).trans (ref_arg7 m c)⟩)
    (run_after m ρ)

end Cert.ReferenceIdeal.RVal

end
-- ==== Proof.lean ====
/-
  A two-layer mean-aggregation graph convolution on 50000 nodes and 800000 edges, against its plain reference, over the
  extended reals.

  Both programs aggregate each node's neighbour features along the edges (rows gathered at the edge sources and
  scatter-added at the edge targets), count each node's in-degree and clip it below at one. A layer then computes, for
  row r and output feature c,

      (∑ k, (agg (r, k) scaled by the degree) * Wl (c, k)) + (∑ k, x (r, k) * Wr (c, k)) + b c,

  the first layer followed by the positive part, the second by the log-softmax of each row.

  The kernel program does the dense part of each layer on a grid of ten blocks of 5000 rows, rounding the operands of the
  matrix products to a narrower float format (the identity on the extended reals), and scales the aggregate by
  MULTIPLYING with the reciprocal 1 / d of the clipped degree; the reference DIVIDES the aggregate by d. Since
  d = max deg 1 is never zero, a / d = a * (1 / d) for every extended real a, and the two programs compute one function
  of the arguments, entry by entry; no finiteness of the inputs is needed. The block bodies are read entry by entry,
  the ten row blocks of each grid cover its result array, and the host operations around the grids are folded over the
  launch contents; the gather and the scatter-add are the same operations on the same index arrays on both sides and
  are never opened.

  The three frames: the two kernel programs' runs terminate without a fault and leave the arguments as launched (the
  grids only read them through input windows), and so does the reference's line of host operations. The idealized
  kernel is the kernel's own text read at the extended reals: the idealization rewrote nothing.
-/
import proofs.«107025_j120259084718_2_alg».proof.Defs
import proofs.«107025_j120259084718_2_alg».proof.Proof.Gen.Kernel
import proofs.«107025_j120259084718_2_alg».proof.Proof.Gen.Kernel.Frame
import proofs.«107025_j120259084718_2_alg».proof.Proof.Gen.KernelIdeal
import proofs.«107025_j120259084718_2_alg».proof.Proof.Gen.KernelIdeal.Frame
import proofs.«107025_j120259084718_2_alg».proof.Proof.Gen.ReferenceIdeal
import proofs.«107025_j120259084718_2_alg».proof.Proof.Gen.Pre_finite_inputs
import proofs.«107025_j120259084718_2_alg».proof.Proof.KernelValue
import proofs.«107025_j120259084718_2_alg».proof.Proof.RefValue

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RVal.run_value m ρ)

/-- The idealization rewrote no operation. -/
theorem preserves : Cert.preserves_Kernel_KernelIdeal := trivial

/-- From memories that agree on the arguments both idealized programs end with the same result array: the one
    function of the arguments (`resultVal`) that each of the two runs is read to. -/
theorem algebraic : Cert.algebraic_KernelIdeal_ReferenceIdeal := by
  intro m ρ m' ρ' _ hagree
  refine ⟨_, Cert.KernelIdeal.KVal.run_value m ρ, ?_⟩
  refine (θ_run Cert.ReferenceIdeal.defs _ _).mono (fun r h c => ?_) (Cert.ReferenceIdeal.RVal.run_value m' ρ')
  obtain ⟨a0, a1, a2, a3, a4, a5, a6, a7⟩ := hagree c
  refine ⟨(h c).1.trans ?_, (h c).2⟩
  rw [a0, a1, a2, a3, a4, a5, a6, a7]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
